-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x64 : Shape := ⟨2, ![100000, 64]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x64, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x64, .f32⟩
  | .hbm, ⟨74, _⟩ => ⟨S3300000x1, .f32⟩
  | .hbm, ⟨75, _⟩ => ⟨S3300000x64, .f32⟩
  | .hbm, ⟨76, _⟩ => ⟨S3300000x64, .f32⟩
  | .hbm, ⟨77, _⟩ => ⟨S_, .f32⟩
  | .hbm, ⟨78, _⟩ => ⟨S100000x64, .f32⟩
  | .hbm, ⟨79, _⟩ => ⟨S3300000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x64_S10000x64_1_0_0_1_n_n_wf : DotDims.WF S10000x32 S32x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x32, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x64, .f32⟩
  | .hbm, ⟨98, _⟩ => ⟨S3300000x1, .f32⟩
  | .hbm, ⟨99, _⟩ => ⟨S3300000x64, .f32⟩
  | .hbm, ⟨100, _⟩ => ⟨S3300000x64, .f32⟩
  | .hbm, ⟨101, _⟩ => ⟨S_, .f32⟩
  | .hbm, ⟨102, _⟩ => ⟨S100000x64, .f32⟩
  | .hbm, ⟨103, _⟩ => ⟨S3300000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  dot_S100000x128_S128x32_S100000x32_1_0_0_1_n_n_wf : DotDims.WF S100000x128 S128x32 S100000x32 [1] [0] [0] [1] [] []
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.HostChain.lean ====
/-
  The sparse half of the graph convolution — everything both programs leave to the host — as functions of arrays.

  From the [2, E] edge list: the source and target node of every edge, followed by one self loop per node (sources,
  targets); the in-degree of every node counted with the self loops (degree); its inverse square root, zero where the
  degree is not positive (invSqrtDegree); the symmetric weight of an edge, the product of the two ends' inverse square
  root degrees (edgeWeight); and the aggregation of a feature matrix along the edges: row i of the result is the sum,
  over the edges into node i, of the source node's row scaled by the edge's weight (aggregate32 for 32 features,
  aggregate64 for 64). A node number is wrapped once if negative (as jax indexes), and a gather clamps it into range.

  These are spelt with the host operations both printed programs use, so that each program's term is an instance of
  them by unfolding, and none of them is ever opened: the two programs differ only in the dense steps between them.
-/
import proofs.«101582_j25331717111854_1_alg».proof.Proof.Gen.ReferenceIdeal

noncomputable section

open Idealize.ShloMosaic

namespace Cert.Gcn

open Cert.ReferenceIdeal Cert.ReferenceIdeal.Facts₀

variable {F : FTy → Type} [FloatOps F]

/-- The source node of each of the 3200000 edges, then the 100000 self loops' nodes 0, 1, 2, … -/
def sources (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target node of each edge, then the self loops' nodes. -/
def targets (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A per-edge vector as a one-column matrix. -/
def asColumn {α : Type} (v : S3300000.Idx → α) : S3300000x1.Idx → α :=
  broadcastInDim S3300000x1 ![0] bcast_S3300000_S3300000x1_0 v

/-- Node numbers with a negative one wrapped once around the 100000 nodes. -/
def wrapped (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The number of edges into each node, self loops included: ones summed at the targets. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (asColumn d) (broadcastInDim S3300000 ![] bcast_S_S3300000 (constant S_ .f32 0x3F800000#32))

/-- One over the square root of the degree where the degree is positive, zero elsewhere. -/
def invSqrtDegree (d : (⟨S3300000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- The symmetric normalisation of each edge: the product of its two ends' inverse square root degrees. -/
def edgeWeight (s d : (⟨S3300000, .i32⟩ : BufTy).Contents (Elt F)) : (⟨S3300000, .f32⟩ : BufTy).Contents (Elt F) :=
  mulf (Host.gather gather_S100000_S3300000x1_S3300000_n_0_n_n_0_1_1 (invSqrtDegree d) (asColumn (wrapped s))) (Host.gather gather_S100000_S3300000x1_S3300000_n_0_n_n_0_1_1 (invSqrtDegree d) (asColumn (wrapped d)))

/-- The aggregation of 32 features along the edges: the source rows, scaled by the edge weights, summed at the targets. -/
def aggregate32 (h : (⟨S100000x32, .f32⟩ : BufTy).Contents (Elt F)) (s d : (⟨S3300000, .i32⟩ : BufTy).Contents (Elt F))
    (w : (⟨S3300000, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (asColumn d) (mulf (Host.gather gather_S100000x32_S3300000x1_S3300000x32_1_0_n_n_0_1_132 h (asColumn (wrapped s))) (broadcastInDim S3300000x32 ![0, 1] bcast_S3300000x1_S3300000x32_0_1 (asColumn w)))

/-- The aggregation of 64 features along the edges. -/
def aggregate64 (h : (⟨S100000x64, .f32⟩ : BufTy).Contents (Elt F)) (s d : (⟨S3300000, .i32⟩ : BufTy).Contents (Elt F))
    (w : (⟨S3300000, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (asColumn d) (mulf (Host.gather gather_S100000x64_S3300000x1_S3300000x64_1_0_n_n_0_1_164 h (asColumn (wrapped s))) (broadcastInDim S3300000x64 ![0, 1] bcast_S3300000x1_S3300000x64_0_1 (asColumn w)))

end Cert.Gcn

end
-- ==== Proof.Spec.lean ====
/-
  The three dense steps of the two-layer graph convolution, as functions of whole arrays over the extended reals.

  * matProd X W       entry (r, j) is the sum over k of X (r, k) · W (k, j): a matrix product
  * rowAdd A b        entry (r, j) is A (r, j) + b (0, j): a bias row added to every row
  * reluOf Z          entry (r, j) is max (Z (r, j)) 0, the zero being the f32 zero word read at the ideal values

  The kernel computes each of them block by block on ten row blocks; the reference computes each in one host operation.
  Both sides are proved equal to these functions index by index; sums over the extended reals are sums in a commutative
  monoid, so no finiteness is needed anywhere.
-/
import Idealize.ShloMosaic.PureOps.Ideal
import Idealize.ShloMosaic.Lib.ValueIdx

noncomputable section

open scoped BigOperators
open Idealize.ShloMosaic Idealize.ShloMosaic.ValueIdx

namespace Cert.Gcn

/-- The matrix product: entry (r, j) is the sum over the contracted axis of the products. -/
def matProd {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- A bias row added to every row of a matrix. -/
def rowAdd {M N : Nat} (A : (⟨2, ![M, N]⟩ : Shape).Idx → EReal) (b : (⟨2, ![1, N]⟩ : Shape).Idx → EReal) :
    (⟨2, ![M, N]⟩ : Shape).Idx → EReal :=
  fun i => A i + b (ix2 (0 : Fin 1) (i 1))

/-- The rectifier: the maximum with zero, entry by entry. -/
def reluOf {M N : Nat} (Z : (⟨2, ![M, N]⟩ : Shape).Idx → EReal) : (⟨2, ![M, N]⟩ : Shape).Idx → EReal :=
  fun i => max (Z i) (Ideal.ofBits .f32 0x00000000#32)

theorem matProd_apply {M K N : Nat} (X : (⟨2, ![M, K]⟩ : Shape).Idx → EReal) (W : (⟨2, ![K, N]⟩ : Shape).Idx → EReal)
    (r : Fin M) (j : Fin N) : matProd X W (ix2 r j) = ∑ k : Fin K, X (ix2 r k) * W (ix2 k j) := rfl

theorem rowAdd_apply {M N : Nat} (A : (⟨2, ![M, N]⟩ : Shape).Idx → EReal) (b : (⟨2, ![1, N]⟩ : Shape).Idx → EReal)
    (r : Fin M) (j : Fin N) : rowAdd A b (ix2 r j) = A (ix2 r j) + b (ix2 (0 : Fin 1) j) := rfl

theorem reluOf_apply {M N : Nat} (Z : (⟨2, ![M, N]⟩ : Shape).Idx → EReal) (i : (⟨2, ![M, N]⟩ : Shape).Idx) :
    reluOf Z i = max (Z i) (Ideal.ofBits .f32 0x00000000#32) := rfl

end Cert.Gcn

end
-- ==== Proof.Model.lean ====
/-
  The whole two-layer graph convolution as one function of the six argument arrays, over the extended reals:

      out = A (relu (A (x · W1) + b1) · W2) + b2,       A h = aggregate h along the weighted edges with self loops.

  Both programs are proved to end at this function of their arguments: the kernel program computes the three dense steps
  (x · W1; relu (· + b1) · W2; · + b2) in kernel regions, row block by row block, and the reference computes them in
  whole-array host operations; the sparse steps between them are the same host operations in both.
-/
import proofs.«101582_j25331717111854_1_alg».proof.Proof.HostChain
import proofs.«101582_j25331717111854_1_alg».proof.Proof.Spec

noncomputable section

open Idealize.ShloMosaic Idealize.ShloMosaic.ValueIdx

namespace Cert.Gcn

open Cert.ReferenceIdeal

/-- A bias vector as a one-row matrix. -/
def asRow {n : Nat} (b : (⟨1, ![n]⟩ : Shape).Idx → EReal) : (⟨2, ![1, n]⟩ : Shape).Idx → EReal :=
  fun i => b (ix1 (i 1))

/-- The first layer before its bias: the projected features aggregated along the edges. -/
def layer1 (x : S100000x128.Idx → EReal) (e : (⟨S2x3200000, .i32⟩ : BufTy).Contents (Elt Ideal)) (w1 : S128x32.Idx → EReal) :
    S100000x32.Idx → EReal :=
  aggregate32 (F := Ideal) (matProd x w1) (sources e) (targets e) (edgeWeight (sources e) (targets e))

/-- The network's output. -/
def gcn (x : S100000x128.Idx → EReal) (e : (⟨S2x3200000, .i32⟩ : BufTy).Contents (Elt Ideal)) (w1 : S128x32.Idx → EReal)
    (b1 : S32.Idx → EReal) (w2 : S32x64.Idx → EReal) (b2 : S64.Idx → EReal) : S100000x64.Idx → EReal :=
  rowAdd (aggregate64 (F := Ideal) (matProd (reluOf (rowAdd (layer1 x e w1) (asRow b1))) w2) (sources e) (targets e)
    (edgeWeight (sources e) (targets e))) (asRow b2)

end Cert.Gcn

end
-- ==== Proof.RefValue.lean ====
/-
  The reference program's result is the model function of its arguments.

  Its run ends with the result buffer at one composed term of the arguments. That term is the model with each dense step
  spelt as a whole-array host operation: a dot_general for each matrix product, a broadcast of the bias vector through a
  [1, n] row to the full matrix and an add, and a maximum with a broadcast zero for the rectifier. Read at an index at the
  ideal values, a dot_general is the sum over the contracted axis, and the two broadcasts read the bias vector at the
  column; so each is the model's function, and the sparse steps between them are the model's by unfolding.
-/
import proofs.«101582_j25331717111854_1_alg».proof.Proof.RefRunP
import proofs.«101582_j25331717111854_1_alg».proof.Proof.Model
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Facts₀ Cert.Gcn

/-- The dot's operand indices at output index i and contraction index c: (i 0, c) on the left, (c, i 1) on the right. -/
theorem dot1_lhs0 (i : S100000x32.Idx) (c : dot_S100000x128_S128x32_S100000x32_1_0_0_1_n_n.contr.Idx) : (dot_S100000x128_S128x32_S100000x32_1_0_0_1_n_n.lhsIdx i c 0).val = (i 0).val := by
  unfold DotDims.lhsIdx
  rw [dif_neg (show ¬(0 : Fin S100000x128.rank) ∈ dot_S100000x128_S128x32_S100000x32_1_0_0_1_n_n.lhsBatch by decide), dif_pos (show (0 : Fin S100000x128.rank) ∈ dot_S100000x128_S128x32_S100000x32_1_0_0_1_n_n.lhsNonContracting by decide)]
  rfl
theorem dot1_lhs1 (i : S100000x32.Idx) (c : dot_S100000x128_S128x32_S100000x32_1_0_0_1_n_n.contr.Idx) : (dot_S100000x128_S128x32_S100000x32_1_0_0_1_n_n.lhsIdx i c 1).val = (c ⟨0, by decide⟩).val :=
  dot_S100000x128_S128x32_S100000x32_1_0_0_1_n_n.lhsIdx_val_of_single rfl i c
theorem dot1_rhs0 (i : S100000x32.Idx) (c : dot_S100000x128_S128x32_S100000x32_1_0_0_1_n_n.contr.Idx) : (dot_S100000x128_S128x32_S100000x32_1_0_0_1_n_n.rhsIdx i c 0).val = (c ⟨0, by decide⟩).val :=
  dot_S100000x128_S128x32_S100000x32_1_0_0_1_n_n.rhsIdx_val_of_single rfl i c
theorem dot1_rhs1 (i : S100000x32.Idx) (c : dot_S100000x128_S128x32_S100000x32_1_0_0_1_n_n.contr.Idx) : (dot_S100000x128_S128x32_S100000x32_1_0_0_1_n_n.rhsIdx i c 1).val = (i 1).val := by
  unfold DotDims.rhsIdx
  rw [dif_neg (show ¬(1 : Fin S128x32.rank) ∈ dot_S100000x128_S128x32_S100000x32_1_0_0_1_n_n.rhsBatch by decide), dif_pos (show (1 : Fin S128x32.rank) ∈ dot_S100000x128_S128x32_S100000x32_1_0_0_1_n_n.rhsNonContracting by decide)]
  rfl

/-- The sum over the dot's one contracted axis, re-indexed by that axis's coordinate. -/
theorem dot1_sum (L : S100000x128.Idx → EReal) (R : S128x32.Idx → EReal) (p : Fin 100000) (q : Fin 32) :
    ∑ c : dot_S100000x128_S128x32_S100000x32_1_0_0_1_n_n.contr.Idx, L (dot_S100000x128_S128x32_S100000x32_1_0_0_1_n_n.lhsIdx (ix2 p q) c) * R (dot_S100000x128_S128x32_S100000x32_1_0_0_1_n_n.rhsIdx (ix2 p q) c)
      = ∑ k : Fin 128, L (ix2 p k) * R (ix2 k q) := by
  rw [← Equiv.sum_comp (contrEquiv1 dot_S100000x128_S128x32_S100000x32_1_0_0_1_n_n 128 rfl rfl).symm]
  refine Finset.sum_congr rfl fun k _ => ?_
  have hk := contrEquiv1_symm_val dot_S100000x128_S128x32_S100000x32_1_0_0_1_n_n 128 rfl rfl k
  have el : dot_S100000x128_S128x32_S100000x32_1_0_0_1_n_n.lhsIdx (ix2 p q) ((contrEquiv1 dot_S100000x128_S128x32_S100000x32_1_0_0_1_n_n 128 rfl rfl).symm k) = ix2 p k := funext fun a => Fin.ext (by
    match a with
    | ⟨0, _⟩ => exact dot1_lhs0 _ _
    | ⟨1, _⟩ => exact (dot1_lhs1 _ _).trans hk)
  have er : dot_S100000x128_S128x32_S100000x32_1_0_0_1_n_n.rhsIdx (ix2 p q) ((contrEquiv1 dot_S100000x128_S128x32_S100000x32_1_0_0_1_n_n 128 rfl rfl).symm k) = ix2 k q := funext fun a => Fin.ext (by
    match a with
    | ⟨0, _⟩ => exact (dot1_rhs0 _ _).trans hk
    | ⟨1, _⟩ => exact dot1_rhs1 _ _)
  rw [el, er]

/-- The dot's operand indices at output index i and contraction index c: (i 0, c) on the left, (c, i 1) on the right. -/
theorem dot2_lhs0 (i : S100000x64.Idx) (c : dot_S100000x32_S32x64_S100000x64_1_0_0_1_n_n.contr.Idx) : (dot_S100000x32_S32x64_S100000x64_1_0_0_1_n_n.lhsIdx i c 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl
theorem dot2_lhs1 (i : S100000x64.Idx) (c : dot_S100000x32_S32x64_S100000x64_1_0_0_1_n_n.contr.Idx) : (dot_S100000x32_S32x64_S100000x64_1_0_0_1_n_n.lhsIdx i c 1).val = (c ⟨0, by decide⟩).val :=
  dot_S100000x32_S32x64_S100000x64_1_0_0_1_n_n.lhsIdx_val_of_single rfl i c
theorem dot2_rhs0 (i : S100000x64.Idx) (c : dot_S100000x32_S32x64_S100000x64_1_0_0_1_n_n.contr.Idx) : (dot_S100000x32_S32x64_S100000x64_1_0_0_1_n_n.rhsIdx i c 0).val = (c ⟨0, by decide⟩).val :=
  dot_S100000x32_S32x64_S100000x64_1_0_0_1_n_n.rhsIdx_val_of_single rfl i c
theorem dot2_rhs1 (i : S100000x64.Idx) (c : dot_S100000x32_S32x64_S100000x64_1_0_0_1_n_n.contr.Idx) : (dot_S100000x32_S32x64_S100000x64_1_0_0_1_n_n.rhsIdx i c 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

/-- The sum over the dot's one contracted axis, re-indexed by that axis's coordinate. -/
theorem dot2_sum (L : S100000x32.Idx → EReal) (R : S32x64.Idx → EReal) (p : Fin 100000) (q : Fin 64) :
    ∑ c : dot_S100000x32_S32x64_S100000x64_1_0_0_1_n_n.contr.Idx, L (dot_S100000x32_S32x64_S100000x64_1_0_0_1_n_n.lhsIdx (ix2 p q) c) * R (dot_S100000x32_S32x64_S100000x64_1_0_0_1_n_n.rhsIdx (ix2 p q) c)
      = ∑ k : Fin 32, L (ix2 p k) * R (ix2 k q) := by
  rw [← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  have el : dot_S100000x32_S32x64_S100000x64_1_0_0_1_n_n.lhsIdx (ix2 p q) ((contrEquiv1 dot_S100000x32_S32x64_S100000x64_1_0_0_1_n_n 32 rfl rfl).symm k) = ix2 p k := funext fun a => Fin.ext (by
    match a with
    | ⟨0, _⟩ => exact dot2_lhs0 _ _
    | ⟨1, _⟩ => exact (dot2_lhs1 _ _).trans hk)
  have er : dot_S100000x32_S32x64_S100000x64_1_0_0_1_n_n.rhsIdx (ix2 p q) ((contrEquiv1 dot_S100000x32_S32x64_S100000x64_1_0_0_1_n_n 32 rfl rfl).symm k) = ix2 k q := funext fun a => Fin.ext (by
    match a with
    | ⟨0, _⟩ => exact (dot2_rhs0 _ _).trans hk
    | ⟨1, _⟩ => exact dot2_rhs1 _ _)
  rw [el, er]

/-- The first dot_general is the matrix product. -/
theorem dot1_eq (X : FVec Ideal S100000x128 .f32) (W : FVec Ideal S128x32 .f32) :
    Host.dotGeneral (F := Ideal) dot_S100000x128_S128x32_S100000x32_1_0_0_1_n_n none X W = matProd X W := by
  funext i
  obtain ⟨r, j, rfl⟩ : ∃ (r : Fin 100000) (j : Fin 32), i = ix2 r j := ⟨i 0, i 1, eq_ix2 i⟩
  simp only [Host.dotGeneral]
  exact (Ideal.dotGeneral_apply dot_S100000x128_S128x32_S100000x32_1_0_0_1_n_n none _ X W (ix2 r j)).trans (dot1_sum X W r j)

/-- The second dot_general is the matrix product. -/
theorem dot2_eq (Z : FVec Ideal S100000x32 .f32) (W : FVec Ideal S32x64 .f32) :
    Host.dotGeneral (F := Ideal) dot_S100000x32_S32x64_S100000x64_1_0_0_1_n_n none Z W = matProd Z W := by
  funext i
  obtain ⟨r, j, rfl⟩ : ∃ (r : Fin 100000) (j : Fin 64), i = ix2 r j := ⟨i 0, i 1, eq_ix2 i⟩
  simp only [Host.dotGeneral]
  exact (Ideal.dotGeneral_apply dot_S100000x32_S32x64_S100000x64_1_0_0_1_n_n none _ Z W (ix2 r j)).trans (dot2_sum Z W r j)

/-- A bias vector broadcast to a [1, 32] row is the vector as a row. -/
theorem row32_eq (b : S32.Idx → EReal) : broadcastInDim S1x32 ![1] bcast_S32_S1x32_1 b = asRow b := by
  funext i
  obtain ⟨u, j, rfl⟩ : ∃ (u : Fin 1) (j : Fin 32), i = ix2 u j := ⟨i 0, i 1, eq_ix2 i⟩
  exact broadcastInDim_apply _ bcast_S32_S1x32_1 b (ix2 u j) (ix1 j) (fun a => match a with
    | ⟨0, _⟩ => by show j.val = if (32 : Nat) = 1 then 0 else j.val; rw [if_neg (by decide)])

/-- A bias vector broadcast to a [1, 64] row is the vector as a row. -/
theorem row64_eq (b : S64.Idx → EReal) : broadcastInDim S1x64 ![1] bcast_S64_S1x64_1 b = asRow b := by
  funext i
  obtain ⟨u, j, rfl⟩ : ∃ (u : Fin 1) (j : Fin 64), i = ix2 u j := ⟨i 0, i 1, eq_ix2 i⟩
  exact broadcastInDim_apply _ bcast_S64_S1x64_1 b (ix2 u j) (ix1 j) (fun a => match a with
    | ⟨0, _⟩ => by show j.val = if (64 : Nat) = 1 then 0 else j.val; rw [if_neg (by decide)])

/-- Adding a [1, 32] row broadcast down the 100000 rows is the row-wise sum. -/
theorem add_row32 (A : S100000x32.Idx → EReal) (b : S1x32.Idx → EReal) :
    addf (F := Ideal) (φ := .f32) A (broadcastInDim S100000x32 ![0, 1] bcast_S1x32_S100000x32_0_1 b) = rowAdd A b := by
  funext i
  obtain ⟨r, j, rfl⟩ : ∃ (r : Fin 100000) (j : Fin 32), i = ix2 r j := ⟨i 0, i 1, eq_ix2 i⟩
  show A (ix2 r j) + broadcastInDim S100000x32 ![0, 1] bcast_S1x32_S100000x32_0_1 b (ix2 r j) = A (ix2 r j) + b (ix2 (0 : Fin 1) j)
  refine congrArg (A (ix2 r j) + ·) ?_
  exact broadcastInDim_apply _ bcast_S1x32_S100000x32_0_1 b (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])

/-- Adding a [1, 64] row broadcast down the 100000 rows is the row-wise sum. -/
theorem add_row64 (A : S100000x64.Idx → EReal) (b : S1x64.Idx → EReal) :
    addf (F := Ideal) (φ := .f32) A (broadcastInDim S100000x64 ![0, 1] bcast_S1x64_S100000x64_0_1 b) = rowAdd A b := by
  funext i
  obtain ⟨r, j, rfl⟩ : ∃ (r : Fin 100000) (j : Fin 64), i = ix2 r j := ⟨i 0, i 1, eq_ix2 i⟩
  show A (ix2 r j) + broadcastInDim S100000x64 ![0, 1] bcast_S1x64_S100000x64_0_1 b (ix2 r j) = A (ix2 r j) + b (ix2 (0 : Fin 1) j)
  refine congrArg (A (ix2 r j) + ·) ?_
  exact broadcastInDim_apply _ bcast_S1x64_S100000x64_0_1 b (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The maximum with the broadcast zero word is the rectifier. -/
theorem max_zero (Z : S100000x32.Idx → EReal) :
    maximumf (F := Ideal) (φ := .f32) Z (broadcastInDim S100000x32 ![] bcast_S_S100000x32 (constant S_ .f32 0x00000000#32)) = reluOf Z := by
  funext i
  show max (Z i) (broadcastInDim S100000x32 ![] bcast_S_S100000x32 (constant (F := Ideal) S_ .f32 0x00000000#32) i) = max (Z i) (Ideal.ofBits .f32 0x00000000#32)
  refine congrArg (max (Z i)) ?_
  exact broadcastInDim_apply _ bcast_S_S100000x32 (constant (F := Ideal) S_ .f32 0x00000000#32) i (fun a => a.elim0) (fun a => a.elim0)

/-- The reference's composed result term, with the sparse steps folded into the model's names. -/
theorem result_layers (m : (ℓ : Loc nD τ sig) → Buf (Elt Ideal) ℓ) (c : Dev nD) :
    Cert.ReferenceIdeal.ValueP.res_main_v79 (F := Ideal) m c
      = addf (aggregate64 (Host.dotGeneral (φ₁ := .f32) (φ₂ := .f32) dot_S100000x32_S32x64_S100000x64_1_0_0_1_n_n none
            (maximumf (addf (aggregate32 (Host.dotGeneral (φ₁ := .f32) (φ₂ := .f32) dot_S100000x128_S128x32_S100000x32_1_0_0_1_n_n none (m ((c.tc : Thread nD τ).loc main_arg0)) (m ((c.tc : Thread nD τ).loc main_arg2)))
                (sources (m ((c.tc : Thread nD τ).loc main_arg1))) (targets (m ((c.tc : Thread nD τ).loc main_arg1)))
                (edgeWeight (sources (m ((c.tc : Thread nD τ).loc main_arg1))) (targets (m ((c.tc : Thread nD τ).loc main_arg1)))))
              (broadcastInDim S100000x32 ![0, 1] bcast_S1x32_S100000x32_0_1 (broadcastInDim S1x32 ![1] bcast_S32_S1x32_1 (m ((c.tc : Thread nD τ).loc main_arg3)))))
              (broadcastInDim S100000x32 ![] bcast_S_S100000x32 (constant S_ .f32 0x00000000#32)))
            (m ((c.tc : Thread nD τ).loc main_arg4)))
          (sources (m ((c.tc : Thread nD τ).loc main_arg1))) (targets (m ((c.tc : Thread nD τ).loc main_arg1)))
          (edgeWeight (sources (m ((c.tc : Thread nD τ).loc main_arg1))) (targets (m ((c.tc : Thread nD τ).loc main_arg1)))))
        (broadcastInDim S100000x64 ![0, 1] bcast_S1x64_S100000x64_0_1 (broadcastInDim S1x64 ![1] bcast_S64_S1x64_1 (m ((c.tc : Thread nD τ).loc main_arg5)))) := by
  unfold Cert.ReferenceIdeal.ValueP.res_main_v79 aggregate64 aggregate32 edgeWeight invSqrtDegree degree wrapped asColumn sources targets
  rfl

/-- The reference's result is the model function of its six arguments. -/
theorem result_eq (m : (ℓ : Loc nD τ sig) → Buf (Elt Ideal) ℓ) (c : Dev nD) :
    Cert.ReferenceIdeal.ValueP.res_main_v79 (F := Ideal) m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [result_layers, row32_eq, row64_eq, dot1_eq, add_row32, max_zero, dot2_eq, add_row64]
  rfl

end Cert.ReferenceIdeal.RefValue

end
-- ==== Proof.KernelRun.lean ====
/-
  The idealized kernel program's run with its result named.

  The program is three kernel regions among stretches of host operations. Every weakly fair execution terminates without a
  fault, and in every final state each unscoped buffer holds what the fold through the segments leaves in it: the result
  buffer holds the last region's output array after its ten points, and the six argument arrays hold what they were
  launched with.
-/
import proofs.«101582_j25331717111854_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last segment boundary's contents. -/
theorem run_named : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.Project.lean ====
/-
  The first kernel region (the projection x · W1), read as a value.

  The output array is tiled by ten row blocks of 10000 rows. At grid point t the body multiplies block t of x (10000 rows,
  all 128 columns) by the whole of W1 into a zero accumulator; the two roundings to bf16 on the way in are the identity at
  the ideal values. So entry (p, q) of the stored block is the sum over k of x (10000 t + p, k) · W1 (k, q), and the whole
  array ends at the matrix product of the two arrays the region was entered with.
-/
import proofs.«101582_j25331717111854_1_alg».proof.Proof.Gen.KernelIdeal.Frame
import proofs.«101582_j25331717111854_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Project

open Cert.KernelIdeal Cert.KernelIdeal.Gen Cert.Gcn

variable (V : (c : Dev nD) → (b : Ref sig .tc) → Buf (Elt Ideal) ((c : Thread nD τ).loc b))

theorem zero_off : (![0, 0] : Fin 2 → Nat) = fun _ => 0 := funext fun a => by fin_cases a <;> rfl

/-- The dot's operand indices at output index i and contraction index c: (i 0, c) on the left, (c, i 1) on the right. -/
theorem dot_lhs0 (i : S10000x32.Idx) (c : dot_S10000x128_S128x32_S10000x32_1_0_0_1_n_n.contr.Idx) : (dot_S10000x128_S128x32_S10000x32_1_0_0_1_n_n.lhsIdx i c 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem dot_lhs1 (i : S10000x32.Idx) (c : dot_S10000x128_S128x32_S10000x32_1_0_0_1_n_n.contr.Idx) : (dot_S10000x128_S128x32_S10000x32_1_0_0_1_n_n.lhsIdx i c 1).val = (c ⟨0, by decide⟩).val :=
  dot_S10000x128_S128x32_S10000x32_1_0_0_1_n_n.lhsIdx_val_of_single rfl i c
theorem dot_rhs0 (i : S10000x32.Idx) (c : dot_S10000x128_S128x32_S10000x32_1_0_0_1_n_n.contr.Idx) : (dot_S10000x128_S128x32_S10000x32_1_0_0_1_n_n.rhsIdx i c 0).val = (c ⟨0, by decide⟩).val :=
  dot_S10000x128_S128x32_S10000x32_1_0_0_1_n_n.rhsIdx_val_of_single rfl i c
theorem dot_rhs1 (i : S10000x32.Idx) (c : dot_S10000x128_S128x32_S10000x32_1_0_0_1_n_n.contr.Idx) : (dot_S10000x128_S128x32_S10000x32_1_0_0_1_n_n.rhsIdx i c 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The sum over the dot's one contracted axis, re-indexed by that axis's coordinate. -/
theorem dot_sum (L : S10000x128.Idx → EReal) (R : S128x32.Idx → EReal) (p : Fin 10000) (q : Fin 32) :
    ∑ c : dot_S10000x128_S128x32_S10000x32_1_0_0_1_n_n.contr.Idx, L (dot_S10000x128_S128x32_S10000x32_1_0_0_1_n_n.lhsIdx (ix2 p q) c) * R (dot_S10000x128_S128x32_S10000x32_1_0_0_1_n_n.rhsIdx (ix2 p q) c)
      = ∑ k : Fin 128, L (ix2 p k) * R (ix2 k q) := by
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact dot_lhs0 _ _
    | ⟨1, _⟩ => exact (dot_lhs1 _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (dot_rhs0 _ _).trans hk
    | ⟨1, _⟩ => exact dot_rhs1 _ _)
  rw [el, er]

/-- The body's arithmetic on one block: entry (p, q) of the stored block is row p of the loaded block times column q of the
    loaded weights. -/
theorem payload_apply (x : Vec Ideal S10000x128 .f32) (w : Vec Ideal S128x32 .f32) (p : Fin 10000) (q : Fin 32) :
    k0_pay1 x w (ix2 p q) = ∑ k : Fin 128, x (ix2 p k) * w (ix2 k q) := by
  unfold k0_pay1
  refine (Ideal.matmul_constant_zero_apply dot_S10000x128_S128x32_S10000x32_1_0_0_1_n_n none (truncf .bf16 x bitsLt_bf16_f32) (truncf .bf16 w bitsLt_bf16_f32) (ix2 p q)).trans ?_
  exact dot_sum x w p q

/-- The index maps over the grid: the row-blocked windows are at block (t, 0), the weights at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of x, entry (p, k), is the entered array's entry in the row of the output block's place for (p, q), column k. -/
theorem read_rows (c : Dev nD) (t : Fin cfg0.N) (p : Fin 10000) (q : Fin 32) (k : Fin 128) :
    iblk0 V c 0 t (ix2 p k) = V c main_arg0 (ix2 ((((cfg0.win 2).blk t).view.emb (ix2 p q)) 0) k) := by
  obtain ⟨e0, e1, e2, e3, e4, e5⟩ := index_facts t
  show V c main_arg0 (((cfg0.win 0).blk t).view.emb (ix2 p k)) = _
  refine congrArg (V c main_arg0) ?_
  funext a; apply Fin.ext
  match a with
  | ⟨0, _⟩ => show win0_0.index t (0 : Fin 2) * 10000 + 1 * p.val = win0_2.index t (0 : Fin 2) * 10000 + 1 * p.val; omega
  | ⟨1, _⟩ => show win0_0.index t (1 : Fin 2) * 128 + 1 * k.val = k.val; omega

/-- The weights' one block, entry (k, q), is the entered array's entry (k, j) for the column j of the output block's place
    for (p, q). -/
theorem read_weights (c : Dev nD) (t : Fin cfg0.N) (p : Fin 10000) (q : Fin 32) (k : Fin 128) :
    iblk0 V c 1 t (ix2 k q) = V c main_arg2 (ix2 k ((((cfg0.win 2).blk t).view.emb (ix2 p q)) 1)) := by
  obtain ⟨e0, e1, e2, e3, e4, e5⟩ := index_facts t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 32 + 1 * q.val = win0_2.index t (1 : Fin 2) * 32 + 1 * q.val; omega

/-- What grid point t writes back is block t of the matrix product of the two arrays the region was entered with. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x32) zero_off]
  funext y
  obtain ⟨p, q, rfl⟩ : ∃ (p : Fin 10000) (q : Fin 32), y = ix2 p q := ⟨y 0, y 1, eq_ix2 y⟩
  show k0_pay1 (iblk0 V c 0 t) (iblk0 V c 1 t) (ix2 p q)
    = matProd (V c main_arg0) (V c main_arg2) (((cfg0.win 2).blk t).view.emb (ix2 p q))
  rw [payload_apply]
  refine Finset.sum_congr rfl fun k _ => ?_
  rw [read_rows V c t p q k, read_weights V c t p q k]

/-- An index of the array lies in point t's block iff each coordinate lies in the block's range on its axis. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Row r is in the block of point r / 10000: the ten blocks cover the array. -/
theorem covered (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨e0, e1, e2, e3, e4, e5⟩ := index_facts t
  refine ⟨t, flush0_2 t, ?_⟩
  rw [mem_block]
  have ht : t.val = (i 0).val / 10000 := rfl
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- The region's output array after its ten points: the matrix product of the two arrays it was entered with. -/
theorem final (c : Dev nD) : (dat0 V c).arrAt 2 cfg0.N = matProd (V c main_arg0) (V c main_arg2) :=
  (dat0 V c).arrAt_eq_of_cover 2 (matProd (V c main_arg0) (V c main_arg2)) (fun t _ => flushed_eq V c t) covered

end Cert.KernelIdeal.Project

end
-- ==== Proof.ReluProject.lean ====
/-
  The second kernel region (bias, rectifier and the projection by W2, fused), read as a value.

  The output array is tiled by ten row blocks of 10000 rows. At grid point t the body adds the bias row to block t of the
  aggregated features, takes the maximum with zero, and multiplies by the whole of W2 into a zero accumulator (the two
  roundings to bf16 are the identity at the ideal values). So entry (p, q) of the stored block is the sum over k of
  max (agg (10000 t + p, k) + b (0, k)) 0 · W2 (k, q), and the whole array ends at
  matProd (reluOf (rowAdd agg b)) W2 of the three arrays the region was entered with.
-/
import proofs.«101582_j25331717111854_1_alg».proof.Proof.Gen.KernelIdeal.Frame
import proofs.«101582_j25331717111854_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.ReluProject

open Cert.KernelIdeal Cert.KernelIdeal.Gen Cert.Gcn

variable (V : (c : Dev nD) → (b : Ref sig .tc) → Buf (Elt Ideal) ((c : Thread nD τ).loc b))

theorem zero_off : (![0, 0] : Fin 2 → Nat) = fun _ => 0 := funext fun a => by fin_cases a <;> rfl

/-- The dot's operand indices at output index i and contraction index c: (i 0, c) on the left, (c, i 1) on the right. -/
theorem dot_lhs0 (i : S10000x64.Idx) (c : dot_S10000x32_S32x64_S10000x64_1_0_0_1_n_n.contr.Idx) : (dot_S10000x32_S32x64_S10000x64_1_0_0_1_n_n.lhsIdx i c 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem dot_lhs1 (i : S10000x64.Idx) (c : dot_S10000x32_S32x64_S10000x64_1_0_0_1_n_n.contr.Idx) : (dot_S10000x32_S32x64_S10000x64_1_0_0_1_n_n.lhsIdx i c 1).val = (c ⟨0, by decide⟩).val :=
  dot_S10000x32_S32x64_S10000x64_1_0_0_1_n_n.lhsIdx_val_of_single rfl i c
theorem dot_rhs0 (i : S10000x64.Idx) (c : dot_S10000x32_S32x64_S10000x64_1_0_0_1_n_n.contr.Idx) : (dot_S10000x32_S32x64_S10000x64_1_0_0_1_n_n.rhsIdx i c 0).val = (c ⟨0, by decide⟩).val :=
  dot_S10000x32_S32x64_S10000x64_1_0_0_1_n_n.rhsIdx_val_of_single rfl i c
theorem dot_rhs1 (i : S10000x64.Idx) (c : dot_S10000x32_S32x64_S10000x64_1_0_0_1_n_n.contr.Idx) : (dot_S10000x32_S32x64_S10000x64_1_0_0_1_n_n.rhsIdx i c 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The sum over the dot's one contracted axis, re-indexed by that axis's coordinate. -/
theorem dot_sum (L : S10000x32.Idx → EReal) (R : S32x64.Idx → EReal) (p : Fin 10000) (q : Fin 64) :
    ∑ c : dot_S10000x32_S32x64_S10000x64_1_0_0_1_n_n.contr.Idx, L (dot_S10000x32_S32x64_S10000x64_1_0_0_1_n_n.lhsIdx (ix2 p q) c) * R (dot_S10000x32_S32x64_S10000x64_1_0_0_1_n_n.rhsIdx (ix2 p q) c)
      = ∑ k : Fin 32, L (ix2 p k) * R (ix2 k q) := by
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact dot_lhs0 _ _
    | ⟨1, _⟩ => exact (dot_lhs1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (dot_rhs0 _ _).trans hk
    | ⟨1, _⟩ => exact dot_rhs1 _ _)
  rw [el, er]

/-- The bias row broadcast down a block's rows, entry (p, k): the row's entry k. -/
theorem bias_row (b : Vec Ideal S1x32 .f32) (p : Fin 10000) (k : Fin 32) :
    broadcastTo S10000x32 b broadcasts_S1x32_S10000x32 (ix2 p k) = b (ix2 (0 : Fin 1) k) :=
  broadcastTo_apply b broadcasts_S1x32_S10000x32 (ix2 p k) (ix2 (0 : Fin 1) k) fun a => by
    match a with
    | ⟨0, _⟩ => rfl
    | ⟨1, _⟩ => rfl

/-- The body's arithmetic on one block: entry (p, q) of the stored block is the rectified, biased row p of the loaded
    block times column q of the loaded weights. -/
theorem payload_apply (b : Vec Ideal S1x32 .f32) (x : Vec Ideal S10000x32 .f32) (w : Vec Ideal S32x64 .f32) (p : Fin 10000) (q : Fin 64) :
    k1_pay1 b x w (ix2 p q)
      = ∑ k : Fin 32, max (x (ix2 p k) + b (ix2 (0 : Fin 1) k)) (Ideal.ofBits .f32 0x00000000#32) * w (ix2 k q) := by
  unfold k1_pay1
  simp only [shapeCast_self]
  refine (Ideal.matmul_constant_zero_apply dot_S10000x32_S32x64_S10000x64_1_0_0_1_n_n none _ _ (ix2 p q)).trans ?_
  refine (dot_sum (fun i => max (x i + broadcastTo S10000x32 b broadcasts_S1x32_S10000x32 i) (Ideal.ofBits .f32 0x00000000#32)) w p q).trans ?_
  refine Finset.sum_congr rfl fun k _ => ?_
  show max (x (ix2 p k) + broadcastTo S10000x32 b broadcasts_S1x32_S10000x32 (ix2 p k)) (Ideal.ofBits .f32 0x00000000#32) * w (ix2 k q) = _
  rw [bias_row b p k]

/-- The index maps over the grid: the row-blocked windows are at block (t, 0), the bias row and the weights at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the features, entry (p, k), is the entered array's entry in the row of the output block's place for (p, q),
    column k. -/
theorem read_rows (c : Dev nD) (t : Fin cfg1.N) (p : Fin 10000) (q : Fin 64) (k : Fin 32) :
    iblk1 V c 0 t (ix2 p k) = V c main_v43 (ix2 ((((cfg1.win 3).blk t).view.emb (ix2 p q)) 0) k) := by
  obtain ⟨e0, e1, e2, e3, e4, e5, e6, e7⟩ := index_facts t
  show V c main_v43 (((cfg1.win 0).blk t).view.emb (ix2 p k)) = _
  refine congrArg (V c main_v43) ?_
  funext a; apply Fin.ext
  match a with
  | ⟨0, _⟩ => show win1_0.index t (0 : Fin 2) * 10000 + 1 * p.val = win1_3.index t (0 : Fin 2) * 10000 + 1 * p.val; omega
  | ⟨1, _⟩ => show win1_0.index t (1 : Fin 2) * 32 + 1 * k.val = k.val; omega

/-- The bias window's one block is the entered row. -/
theorem read_bias (c : Dev nD) (t : Fin cfg1.N) (k : Fin 32) :
    iblk1 V c 1 t (ix2 (0 : Fin 1) k) = V c main_v44 (ix2 (0 : Fin 1) k) := by
  obtain ⟨e0, e1, e2, e3, e4, e5, e6, e7⟩ := index_facts t
  show V c main_v44 (((cfg1.win 1).blk t).view.emb (ix2 (0 : Fin 1) k)) = _
  refine congrArg (V c main_v44) ?_
  funext a; apply Fin.ext
  match a with
  | ⟨0, _⟩ => show win1_1.index t (0 : Fin 2) * 1 + 1 * 0 = 0; omega
  | ⟨1, _⟩ => show win1_1.index t (1 : Fin 2) * 32 + 1 * k.val = k.val; omega

/-- The weights' one block, entry (k, q), is the entered array's entry (k, j) for the column j of the output block's place
    for (p, q). -/
theorem read_weights (c : Dev nD) (t : Fin cfg1.N) (p : Fin 10000) (q : Fin 64) (k : Fin 32) :
    iblk1 V c 2 t (ix2 k q) = V c main_arg4 (ix2 k ((((cfg1.win 3).blk t).view.emb (ix2 p q)) 1)) := by
  obtain ⟨e0, e1, e2, e3, e4, e5, e6, e7⟩ := index_facts t
  show V c main_arg4 (((cfg1.win 2).blk t).view.emb (ix2 k q)) = _
  refine congrArg (V c main_arg4) ?_
  funext a; apply Fin.ext
  match a with
  | ⟨0, _⟩ => show win1_2.index t (0 : Fin 2) * 32 + 1 * k.val = k.val; omega
  | ⟨1, _⟩ => show win1_2.index t (1 : Fin 2) * 64 + 1 * q.val = win1_3.index t (1 : Fin 2) * 64 + 1 * q.val; omega

/-- What grid point t writes back is block t of the rectified, biased features times the weights, of the three arrays the
    region was entered with. -/
theorem flushed_eq (c : Dev nD) (t : Fin cfg1.N) :
    (dat1 V c).flushed 3 t = ((cfg1.win 3).blk t).view.read (Elt Ideal)
      (matProd (reluOf (rowAdd (V c main_v43) (V c main_v44))) (V c main_arg4)) := by
  show (cfg1.win 3).cut (grid1.coords t) ((dat1 V c).after 3 t) = _
  rw [after1_3]
  unfold out1_3
  rw [View.canon_unit_zero zero_off]
  simp only [View.ld_unit_zero (S := S10000x32) zero_off, View.ld_unit_zero (S := S1x32) zero_off, View.ld_unit_zero (S := S32x64) zero_off]
  funext y
  obtain ⟨p, q, rfl⟩ : ∃ (p : Fin 10000) (q : Fin 64), y = ix2 p q := ⟨y 0, y 1, eq_ix2 y⟩
  show k1_pay1 (iblk1 V c 1 t) (iblk1 V c 0 t) (iblk1 V c 2 t) (ix2 p q)
    = matProd (reluOf (rowAdd (V c main_v43) (V c main_v44))) (V c main_arg4) (((cfg1.win 3).blk t).view.emb (ix2 p q))
  rw [payload_apply]
  refine Finset.sum_congr rfl fun k _ => ?_
  rw [read_rows V c t p q k, read_bias V c t k, read_weights V c t p q k]
  rfl

/-- An index of the array lies in point t's block iff each coordinate lies in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Row r is in the block of point r / 10000: the ten blocks cover the array. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5, e6, e7⟩ := index_facts t
  refine ⟨t, flush1_3 t, ?_⟩
  rw [mem_block]
  have ht : t.val = (i 0).val / 10000 := rfl
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The region's output array after its ten points. -/
theorem final (c : Dev nD) :
    (dat1 V c).arrAt 3 cfg1.N = matProd (reluOf (rowAdd (V c main_v43) (V c main_v44))) (V c main_arg4) :=
  (dat1 V c).arrAt_eq_of_cover 3 (matProd (reluOf (rowAdd (V c main_v43) (V c main_v44))) (V c main_arg4))
    (fun t _ => flushed_eq V c t) covered

end Cert.KernelIdeal.ReluProject

end
-- ==== Proof.BiasAdd.lean ====
/-
  The third kernel region (the final bias add), read as a value.

  The region's output array is tiled by ten row blocks of 10000 rows; at grid point t the body stores, into block t,
  the block t of the aggregated features plus the bias row broadcast down the rows. So the whole array ends at
  (agg + b) index by index: entry (r, j) is agg (r, j) + b (0, j), whatever contents the region was entered with.
-/
import proofs.«101582_j25331717111854_1_alg».proof.Proof.Gen.KernelIdeal.Frame
import proofs.«101582_j25331717111854_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.BiasAdd

open Cert.KernelIdeal Cert.KernelIdeal.Gen Cert.Gcn

variable (V : (c : Dev nD) → (b : Ref sig .tc) → Buf (Elt Ideal) ((c : Thread nD τ).loc b))

theorem zero_off : (![0, 0] : Fin 2 → Nat) = fun _ => 0 := funext fun a => by fin_cases a <;> rfl

/-- The body's arithmetic on one block: entry (p, q) of the stored block is the loaded block's entry plus the bias row's
    entry q. -/
theorem payload_apply (b : Vec Ideal S1x64 .f32) (x : Vec Ideal S10000x64 .f32) (p : Fin 10000) (q : Fin 64) :
    k2_pay1 b x (ValueIdx.ix2 p q) = x (ValueIdx.ix2 p q) + b (ValueIdx.ix2 (0 : Fin 1) q) := by
  unfold k2_pay1
  simp only [shapeCast_self]
  show x (ValueIdx.ix2 p q) + broadcastTo S10000x64 b broadcasts_S1x64_S10000x64 (ValueIdx.ix2 p q) = _
  refine congrArg (x (ValueIdx.ix2 p q) + ·) ?_
  refine broadcastTo_apply b broadcasts_S1x64_S10000x64 (ValueIdx.ix2 p q) (ValueIdx.ix2 (0 : Fin 1) q) fun a => ?_
  match a with
  | ⟨0, _⟩ => rfl
  | ⟨1, _⟩ => rfl

/-- The three index maps over the grid: the row-blocked windows are at block (t, 0), the bias row at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The features' block at point t, entry (p, q), is the entered array's entry at the output block's place for (p, q). -/
theorem read_features (c : Dev nD) (t : Fin cfg2.N) (p : Fin 10000) (q : Fin 64) :
    iblk2 V c 0 t (ValueIdx.ix2 p q) = V c main_v58 (((cfg2.win 2).blk t).view.emb (ValueIdx.ix2 p q)) := by
  obtain ⟨e0, e1, e2, e3, e4, e5⟩ := index_facts t
  show V c main_v58 (((cfg2.win 0).blk t).view.emb (ValueIdx.ix2 p q)) = V c main_v58 (((cfg2.win 2).blk t).view.emb (ValueIdx.ix2 p q))
  refine congrArg (V c main_v58) ?_
  funext a; apply Fin.ext
  match a with
  | ⟨0, _⟩ => show win2_0.index t (0 : Fin 2) * 10000 + 1 * p.val = win2_2.index t (0 : Fin 2) * 10000 + 1 * p.val; omega
  | ⟨1, _⟩ => show win2_0.index t (1 : Fin 2) * 64 + 1 * q.val = win2_2.index t (1 : Fin 2) * 64 + 1 * q.val; omega

/-- The bias window's one block, entry (0, q), is the entered row's entry (0, j) for the column j of the output block's
    place for (p, q). -/
theorem read_bias (c : Dev nD) (t : Fin cfg2.N) (p : Fin 10000) (q : Fin 64) :
    iblk2 V c 1 t (ValueIdx.ix2 (0 : Fin 1) q)
      = V c main_v59 (ValueIdx.ix2 (0 : Fin 1) ((((cfg2.win 2).blk t).view.emb (ValueIdx.ix2 p q)) 1)) := by
  obtain ⟨e0, e1, e2, e3, e4, e5⟩ := index_facts t
  show V c main_v59 (((cfg2.win 1).blk t).view.emb (ValueIdx.ix2 (0 : Fin 1) q)) = _
  refine congrArg (V c main_v59) ?_
  funext a; apply Fin.ext
  match a with
  | ⟨0, _⟩ => show win2_1.index t (0 : Fin 2) * 1 + 1 * 0 = 0; omega
  | ⟨1, _⟩ => show win2_1.index t (1 : Fin 2) * 64 + 1 * q.val = win2_2.index t (1 : Fin 2) * 64 + 1 * q.val; omega

/-- What grid point t writes back is block t of the row-wise sum of the two arrays the region was entered with. -/
theorem flushed_eq (c : Dev nD) (t : Fin cfg2.N) :
    (dat2 V c).flushed 2 t = ((cfg2.win 2).blk t).view.read (Elt Ideal) (rowAdd (V c main_v58) (V c main_v59)) := by
  show (cfg2.win 2).cut (grid2.coords t) ((dat2 V c).after 2 t) = _
  rw [after2_2]
  unfold out2_2
  rw [View.canon_unit_zero zero_off]
  simp only [View.ld_unit_zero (S := S10000x64) zero_off, View.ld_unit_zero (S := S1x64) zero_off]
  funext y
  obtain ⟨p, q, rfl⟩ : ∃ (p : Fin 10000) (q : Fin 64), y = ValueIdx.ix2 p q := ⟨y 0, y 1, ValueIdx.eq_ix2 y⟩
  show k2_pay1 (iblk2 V c 1 t) (iblk2 V c 0 t) (ValueIdx.ix2 p q)
    = rowAdd (V c main_v58) (V c main_v59) (((cfg2.win 2).blk t).view.emb (ValueIdx.ix2 p q))
  rw [payload_apply, read_features V c t p q, read_bias V c t p q]
  rfl

/-- An index of the array lies in point t's block iff each coordinate lies in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v60).slice (win2_2.rect t)).set ↔ _
  rw [View.set_slice_whole, Rect.mem_set_unit]
  exact Iff.rfl

/-- Row r is in the block of point r / 10000: the ten blocks cover the array. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5⟩ := index_facts t
  refine ⟨t, flush2_2 t, ?_⟩
  rw [mem_block]
  have ht : t.val = (i 0).val / 10000 := rfl
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The region's output array after its ten points: the row-wise sum of the two arrays it was entered with. -/
theorem final (c : Dev nD) : (dat2 V c).arrAt 2 cfg2.N = rowAdd (V c main_v58) (V c main_v59) :=
  (dat2 V c).arrAt_eq_of_cover 2 (rowAdd (V c main_v58) (V c main_v59)) (fun t _ => flushed_eq V c t) covered

end Cert.KernelIdeal.BiasAdd

end
-- ==== Proof.KernelValue.lean ====
/-
  The kernel program's result is the model function of its arguments.

  The program's buffers are followed through its eight segments. The first three stretches of host operations compute,
  from the edge list, the sources, the targets and the edge weights; region 0 leaves x · W1; the next stretch aggregates it
  along the edges and reshapes b1 to a row; region 1 leaves relu (· + b1) · W2; the next stretch aggregates that and
  reshapes b2; region 2 adds b2. Each stretch is read by unfolding its operations at the buffers it writes (a buffer it
  does not write keeps its contents), each region by its value lemma at the contents it is entered with.
-/
import proofs.«101582_j25331717111854_1_alg».proof.Proof.Project
import proofs.«101582_j25331717111854_1_alg».proof.Proof.ReluProject
import proofs.«101582_j25331717111854_1_alg».proof.Proof.BiasAdd
import proofs.«101582_j25331717111854_1_alg».proof.Proof.Model
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Hand

open Cert.KernelIdeal Cert.KernelIdeal.Gen Cert.Gcn

variable (m : (ℓ : Loc nD τ sig) → Buf (Elt Ideal) ℓ) (ρ : Dev nD → PrngReg) (c : Dev nD)

/-! ## Before region 0: the three stretches from the launch -/

theorem at3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem at3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem at3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem at3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem at3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-- The sources, as the first stretch leaves them. -/
theorem at3_sources : W3 m ρ c (Proc.devRef .tc main_v3) = sources (m ((c : Thread nD τ).loc main_arg1)) := by
  show StableHlo.after hostOps0_2 (StableHlo.after hostOps0_1 (StableHlo.after hostOps0 (W0 m ρ c))) (Proc.devRef .tc main_v3) = _
  after_results_simp
  unfold sources
  rfl

/-- The targets. -/
theorem at3_targets : W3 m ρ c (Proc.devRef .tc main_v6) = targets (m ((c : Thread nD τ).loc main_arg1)) := by
  show StableHlo.after hostOps0_2 (StableHlo.after hostOps0_1 (StableHlo.after hostOps0 (W0 m ρ c))) (Proc.devRef .tc main_v6) = _
  after_results_simp
  unfold targets
  rfl

/-! The edge weights are read one stretch at a time: the degrees after the first stretch, their inverse square roots after
    the second (the outlined select), the two gathers and their product after the third. -/

theorem at1_sources : W1 m ρ c (Proc.devRef .tc main_v3) = sources (m ((c : Thread nD τ).loc main_arg1)) := by
  show StableHlo.after hostOps0 (W0 m ρ c) (Proc.devRef .tc main_v3) = _
  after_results_simp
  unfold sources
  rfl

theorem at1_targets : W1 m ρ c (Proc.devRef .tc main_v6) = targets (m ((c : Thread nD τ).loc main_arg1)) := by
  show StableHlo.after hostOps0 (W0 m ρ c) (Proc.devRef .tc main_v6) = _
  after_results_simp
  unfold targets
  rfl

/-- Where the degree is positive. -/
theorem at1_positive : W1 m ρ c (Proc.devRef .tc main_v12)
    = cmpf (F := Ideal) (φ := .f32) .ogt (degree (targets (m ((c : Thread nD τ).loc main_arg1)))) (broadcastInDim Cert.ReferenceIdeal.S100000 ![] Cert.ReferenceIdeal.Facts₀.bcast_S_S100000 (constant Cert.ReferenceIdeal.S_ .f32 0x00000000#32)) := by
  show StableHlo.after hostOps0 (W0 m ρ c) (Proc.devRef .tc main_v12) = _
  after_results_simp
  rfl

/-- One over the square root of the degree. -/
theorem at1_rsqrt : W1 m ρ c (Proc.devRef .tc main_v13) = Host.rsqrt (F := Ideal) (φ := .f32) (degree (targets (m ((c : Thread nD τ).loc main_arg1)))) := by
  show StableHlo.after hostOps0 (W0 m ρ c) (Proc.devRef .tc main_v13) = _
  after_results_simp
  rfl

/-- The zero the select falls back to. -/
theorem at1_zero : W1 m ρ c (Proc.devRef .tc main_cst_2) = constant (F := Ideal) Cert.ReferenceIdeal.S_ .f32 0x00000000#32 := by
  show StableHlo.after hostOps0 (W0 m ρ c) (Proc.devRef .tc main_cst_2) = _
  after_results_simp <;> rfl

section Stretches

variable (V : Valuation τ sig (Elt Ideal))

/-- The outlined select, from whatever the buffers it reads hold. -/
theorem select_stretch : StableHlo.after hostOps0_1 V (Proc.devRef .tc main_v14)
    = (select (V (Proc.devRef .tc main_v12)) (V (Proc.devRef .tc main_v13)) (broadcastInDim S100000 ![] bcast_S_S100000 (id (V (Proc.devRef .tc main_cst_2))))
        : (⟨S100000, .f32⟩ : BufTy).Contents (Elt Ideal)) := by
  after_results_simp
  rfl

theorem select_stretch_sources : StableHlo.after hostOps0_1 V (Proc.devRef .tc main_v3) = V (Proc.devRef .tc main_v3) := by
  after_results_simp <;> rfl
theorem select_stretch_targets : StableHlo.after hostOps0_1 V (Proc.devRef .tc main_v6) = V (Proc.devRef .tc main_v6) := by
  after_results_simp <;> rfl

/-- The two gathers of the inverse square root degrees and their product, from whatever the buffers read hold. -/
theorem weights_stretch : StableHlo.after hostOps0_2 V (Proc.devRef .tc main_v29)
    = mulf (F := Ideal) (φ := .f32)
        (Host.gather gather_S100000_S3300000x1_S3300000_n_0_n_n_0_1_1 (V (Proc.devRef .tc main_v14) : (⟨S100000, .f32⟩ : BufTy).Contents (Elt Ideal)) (asColumn (wrapped (F := Ideal) (V (Proc.devRef .tc main_v3)))))
        (Host.gather gather_S100000_S3300000x1_S3300000_n_0_n_n_0_1_1 (V (Proc.devRef .tc main_v14) : (⟨S100000, .f32⟩ : BufTy).Contents (Elt Ideal)) (asColumn (wrapped (F := Ideal) (V (Proc.devRef .tc main_v6))))) := by
  after_results_simp
  unfold asColumn wrapped
  rfl

end Stretches

/-- The inverse square root degrees after the second stretch. -/
theorem at2_invSqrtDegree : W2 m ρ c (Proc.devRef .tc main_v14) = invSqrtDegree (targets (m ((c : Thread nD τ).loc main_arg1))) := by
  show StableHlo.after hostOps0_1 (W1 m ρ c) (Proc.devRef .tc main_v14) = _
  rw [select_stretch, at1_positive, at1_rsqrt, at1_zero]
  rfl

theorem at2_sources : W2 m ρ c (Proc.devRef .tc main_v3) = sources (m ((c : Thread nD τ).loc main_arg1)) := by
  show StableHlo.after hostOps0_1 (W1 m ρ c) (Proc.devRef .tc main_v3) = _
  rw [select_stretch_sources, at1_sources]

theorem at2_targets : W2 m ρ c (Proc.devRef .tc main_v6) = targets (m ((c : Thread nD τ).loc main_arg1)) := by
  show StableHlo.after hostOps0_1 (W1 m ρ c) (Proc.devRef .tc main_v6) = _
  rw [select_stretch_targets, at1_targets]

/-- The edge weights, computed once for both layers. -/
theorem at3_weights : W3 m ρ c (Proc.devRef .tc main_v29) = edgeWeight (sources (m ((c : Thread nD τ).loc main_arg1))) (targets (m ((c : Thread nD τ).loc main_arg1))) := by
  show StableHlo.after hostOps0_2 (W2 m ρ c) (Proc.devRef .tc main_v29) = _
  rw [weights_stretch, at2_invSqrtDegree, at2_sources, at2_targets]
  rfl

/-! ## Region 0 -/

/-- Region 0 leaves the projection x · W1. -/
theorem at4_projected : W4 m ρ c (Proc.devRef .tc main_v30) = matProd (m ((c : Thread nD τ).loc main_arg0)) (m ((c : Thread nD τ).loc main_arg2)) := by
  rw [show W4 m ρ c (Proc.devRef .tc main_v30) = (dat0 (V3 m ρ) c).arrAt 2 cfg0.N from W4_arr m ρ c 2, Project.final (V3 m ρ) c]
  show matProd (W3 m ρ c (Proc.devRef .tc main_arg0)) (W3 m ρ c (Proc.devRef .tc main_arg2)) = _
  rw [at3_main_arg0, at3_main_arg2]

theorem at4_main_v3 : W4 m ρ c (Proc.devRef .tc main_v3) = W3 m ρ c (Proc.devRef .tc main_v3) := W4_of_ne m ρ c main_v3 (by decide)
theorem at4_main_v6 : W4 m ρ c (Proc.devRef .tc main_v6) = W3 m ρ c (Proc.devRef .tc main_v6) := W4_of_ne m ρ c main_v6 (by decide)
theorem at4_main_v29 : W4 m ρ c (Proc.devRef .tc main_v29) = W3 m ρ c (Proc.devRef .tc main_v29) := W4_of_ne m ρ c main_v29 (by decide)
theorem at4_main_arg3 : W4 m ρ c (Proc.devRef .tc main_arg3) = W3 m ρ c (Proc.devRef .tc main_arg3) := W4_of_ne m ρ c main_arg3 (by decide)
theorem at4_main_arg4 : W4 m ρ c (Proc.devRef .tc main_arg4) = W3 m ρ c (Proc.devRef .tc main_arg4) := W4_of_ne m ρ c main_arg4 (by decide)
theorem at4_main_arg5 : W4 m ρ c (Proc.devRef .tc main_arg5) = W3 m ρ c (Proc.devRef .tc main_arg5) := W4_of_ne m ρ c main_arg5 (by decide)

/-! ## The stretch between regions 0 and 1 -/

/-- The projected features aggregated along the edges. -/
theorem at5_aggregated : W5 m ρ c (Proc.devRef .tc main_v43)
    = aggregate32 (F := Ideal) (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  after_results_simp
  unfold aggregate32 asColumn wrapped
  rfl

/-- The first bias reshaped to a row. -/
theorem at5_bias : W5 m ρ c (Proc.devRef .tc main_v44) = asRow (W4 m ρ c (Proc.devRef .tc main_arg3)) := by
  show StableHlo.after hostOps1 (W4 m ρ c) (Proc.devRef .tc main_v44) = _
  after_results_simp
  funext i
  obtain ⟨u, j, rfl⟩ : ∃ (u : Fin 1) (j : Fin 32), i = ix2 u j := ⟨i 0, i 1, eq_ix2 i⟩
  exact shapeCast_a_1a_apply _ shapeCasts_S32_S1x32 u j

theorem at5_main_v3 : W5 m ρ c (Proc.devRef .tc main_v3) = W4 m ρ c (Proc.devRef .tc main_v3) := by
  show StableHlo.after hostOps1 (W4 m ρ c) (Proc.devRef .tc main_v3) = _
  after_results_simp <;> rfl
theorem at5_main_v6 : W5 m ρ c (Proc.devRef .tc main_v6) = W4 m ρ c (Proc.devRef .tc main_v6) := by
  show StableHlo.after hostOps1 (W4 m ρ c) (Proc.devRef .tc main_v6) = _
  after_results_simp <;> rfl
theorem at5_main_v29 : W5 m ρ c (Proc.devRef .tc main_v29) = W4 m ρ c (Proc.devRef .tc main_v29) := by
  show StableHlo.after hostOps1 (W4 m ρ c) (Proc.devRef .tc main_v29) = _
  after_results_simp <;> rfl
theorem at5_main_arg4 : W5 m ρ c (Proc.devRef .tc main_arg4) = W4 m ρ c (Proc.devRef .tc main_arg4) := by
  show StableHlo.after hostOps1 (W4 m ρ c) (Proc.devRef .tc main_arg4) = _
  after_results_simp <;> rfl
theorem at5_main_arg5 : W5 m ρ c (Proc.devRef .tc main_arg5) = W4 m ρ c (Proc.devRef .tc main_arg5) := by
  show StableHlo.after hostOps1 (W4 m ρ c) (Proc.devRef .tc main_arg5) = _
  after_results_simp <;> rfl

/-! ## Region 1 -/

/-- Region 1 leaves the rectified, biased features projected by W2. -/
theorem at6_projected : W6 m ρ c (Proc.devRef .tc main_v45)
    = matProd (reluOf (rowAdd (W5 m ρ c (Proc.devRef .tc main_v43)) (W5 m ρ c (Proc.devRef .tc main_v44)))) (W5 m ρ c (Proc.devRef .tc main_arg4)) := by
  rw [show W6 m ρ c (Proc.devRef .tc main_v45) = (dat1 (V5 m ρ) c).arrAt 3 cfg1.N from W6_arr m ρ c 3, ReluProject.final (V5 m ρ) c]

theorem at6_main_v3 : W6 m ρ c (Proc.devRef .tc main_v3) = W5 m ρ c (Proc.devRef .tc main_v3) := W6_of_ne m ρ c main_v3 (by decide)
theorem at6_main_v6 : W6 m ρ c (Proc.devRef .tc main_v6) = W5 m ρ c (Proc.devRef .tc main_v6) := W6_of_ne m ρ c main_v6 (by decide)
theorem at6_main_v29 : W6 m ρ c (Proc.devRef .tc main_v29) = W5 m ρ c (Proc.devRef .tc main_v29) := W6_of_ne m ρ c main_v29 (by decide)
theorem at6_main_arg5 : W6 m ρ c (Proc.devRef .tc main_arg5) = W5 m ρ c (Proc.devRef .tc main_arg5) := W6_of_ne m ρ c main_arg5 (by decide)

/-! ## The stretch between regions 1 and 2 -/

/-- The second layer's features aggregated along the edges. -/
theorem at7_aggregated : W7 m ρ c (Proc.devRef .tc main_v58)
    = aggregate64 (F := Ideal) (W6 m ρ c (Proc.devRef .tc main_v45)) (W6 m ρ c (Proc.devRef .tc main_v3)) (W6 m ρ c (Proc.devRef .tc main_v6)) (W6 m ρ c (Proc.devRef .tc main_v29)) := by
  show StableHlo.after hostOps2 (W6 m ρ c) (Proc.devRef .tc main_v58) = _
  after_results_simp
  unfold aggregate64 asColumn wrapped
  rfl

/-- The second bias reshaped to a row. -/
theorem at7_bias : W7 m ρ c (Proc.devRef .tc main_v59) = asRow (W6 m ρ c (Proc.devRef .tc main_arg5)) := by
  show StableHlo.after hostOps2 (W6 m ρ c) (Proc.devRef .tc main_v59) = _
  after_results_simp
  funext i
  obtain ⟨u, j, rfl⟩ : ∃ (u : Fin 1) (j : Fin 64), i = ix2 u j := ⟨i 0, i 1, eq_ix2 i⟩
  exact shapeCast_a_1a_apply _ shapeCasts_S64_S1x64 u j

/-! ## Region 2, and the whole -/

/-- Region 2 leaves the aggregated features plus the second bias. -/
theorem at8_result : W8 m ρ c (Proc.devRef .tc main_v60) = rowAdd (W7 m ρ c (Proc.devRef .tc main_v58)) (W7 m ρ c (Proc.devRef .tc main_v59)) := by
  rw [show W8 m ρ c (Proc.devRef .tc main_v60) = (dat2 (V7 m ρ) c).arrAt 2 cfg2.N from W8_arr m ρ c 2, BiasAdd.final (V7 m ρ) c]

/-- The result buffer after the last segment is the model function of the six arguments. -/
theorem result_value : W8 m ρ c (Proc.devRef .tc main_v60)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [at8_result, at7_aggregated, at7_bias, at6_projected, at6_main_v3, at6_main_v6, at6_main_v29, at6_main_arg5,
    at5_aggregated, at5_bias, at5_main_v3, at5_main_v6, at5_main_v29, at5_main_arg4, at5_main_arg5,
    at4_projected, at4_main_v3, at4_main_v6, at4_main_v29, at4_main_arg3, at4_main_arg4, at4_main_arg5,
    at3_sources, at3_targets, at3_weights, at3_main_arg3, at3_main_arg4, at3_main_arg5]
  rfl

end Cert.KernelIdeal.Hand

end
-- ==== Proof.lean ====
/-
  The proof of the certificate's claim: a two-layer graph convolution, computed with its three dense steps in kernel
  regions, against the same network computed by whole-array host operations.

  At the ideal values both programs end, on every device, with the result buffer at one function of the six arguments,
      out = A (relu (A (x · W1) + b1) · W2) + b2,
  where A aggregates a feature matrix along the symmetrically normalised edges with self loops (Proof/Model.lean). The
  kernel program's value is read off its run segment by segment (Proof/KernelRun.lean, Proof/KernelValue.lean), each kernel
  region as a whole-array function of the arrays it is entered with (Proof/Project.lean, Proof/ReluProject.lean,
  Proof/BiasAdd.lean); the reference's value is read off its run (Proof/RefRunP.lean, Proof/RefValue.lean). The sparse
  steps are the same host operations on both sides and are never opened; a matrix product computed on ten row blocks and one
  computed whole are the same sums over the extended reals, so the inputs' finiteness is not used. The three frames are the
  programs' runs with the results dropped; the idealization rewrote no operation, so there is nothing to preserve.
-/
import proofs.«101582_j25331717111854_1_alg».proof.Defs
import proofs.«101582_j25331717111854_1_alg».proof.Proof.Gen.Kernel
import proofs.«101582_j25331717111854_1_alg».proof.Proof.Gen.Kernel.Skeleton
import proofs.«101582_j25331717111854_1_alg».proof.Proof.Gen.Kernel.Launch
import proofs.«101582_j25331717111854_1_alg».proof.Proof.Gen.Kernel.Points
import proofs.«101582_j25331717111854_1_alg».proof.Proof.Gen.Kernel.Frame
import proofs.«101582_j25331717111854_1_alg».proof.Proof.Gen.KernelIdeal
import proofs.«101582_j25331717111854_1_alg».proof.Proof.Gen.KernelIdeal.Skeleton
import proofs.«101582_j25331717111854_1_alg».proof.Proof.Gen.KernelIdeal.Launch
import proofs.«101582_j25331717111854_1_alg».proof.Proof.Gen.KernelIdeal.Points
import proofs.«101582_j25331717111854_1_alg».proof.Proof.Gen.KernelIdeal.Frame
import proofs.«101582_j25331717111854_1_alg».proof.Proof.Gen.ReferenceIdeal
import proofs.«101582_j25331717111854_1_alg».proof.Proof.Gen.Pre_finite_inputs
import proofs.«101582_j25331717111854_1_alg».proof.Proof.RefRunP
import proofs.«101582_j25331717111854_1_alg».proof.Proof.RefValue
import proofs.«101582_j25331717111854_1_alg».proof.Proof.KernelRun
import proofs.«101582_j25331717111854_1_alg».proof.Proof.KernelValue
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the result buffer at the model function of the
    arguments: the kernel program by its segments, the reference by its one composed term. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_value m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.RefValue.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
